-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128x3x3 : Shape := ⟨6, ![16, 64, 128, 128, 3, 3]⟩
abbrev S_ : Shape := ⟨0, ![]⟩

class Facts : Prop where
  bcast_S_S16x64x128x128x3x3 : S_.BroadcastsInDim S16x64x128x128x3x3 (![] : Fin 0 → Fin S16x64x128x128x3x3.rank)
  reducesTo_S16x64x128x128x3x3_S_d0_1_2_3_4_5 : S16x64x128x128x3x3.ReducesTo [0, 1, 2, 3, 4, 5] S_
  h_S_ : 0 < S_.numel

variable [Facts]

def fn {F : FTy → Type} [FloatOps F] (main_arg0 : FVec F S16x64x128x128x3x3 .f32) : IVec S_ 1 :=
  let main_v0 : FVec F S16x64x128x128x3x3 .f32 := Host.absf main_arg0
  let main_cst : FVec F S_ .f32 := constant S_ .f32 0x7F800000#32
  let main_v1 : FVec F S16x64x128x128x3x3 .f32 := broadcastInDim S16x64x128x128x3x3 ![] bcast_S_S16x64x128x128x3x3 main_cst
  let main_v2 : IVec S16x64x128x128x3x3 1 := cmpf .olt main_v0 main_v1
  let main_c : IVec S_ 1 := constantI S_ 1 1#1
  let main_v3 : IVec S_ 1 := (fun x v => Host.reduce IntOp.andi x v reducesTo_S16x64x128x128x3x3_S_d0_1_2_3_4_5 h_S_) main_v2 main_c
  main_v3
-- ==== Kernel.lean ====
abbrev S16x64x128x128x3x3 : Shape := ⟨6, ![16, 64, 128, 128, 3, 3]⟩
abbrev S16x64x3x3x128x128 : Shape := ⟨6, ![16, 64, 3, 3, 128, 128]⟩
abbrev S16x64x128x128 : Shape := ⟨4, ![16, 64, 128, 128]⟩
abbrev S1x16x3x3x128x128 : Shape := ⟨6, ![1, 16, 3, 3, 128, 128]⟩
abbrev S1x16x128x128 : Shape := ⟨4, ![1, 16, 128, 128]⟩
abbrev S16x128x128 : Shape := ⟨3, ![16, 128, 128]⟩
abbrev S1x16x1x1x128x128 : Shape := ⟨6, ![1, 16, 1, 1, 128, 128]⟩
abbrev S16x127x128 : Shape := ⟨3, ![16, 127, 128]⟩
abbrev S16x1x128 : Shape := ⟨3, ![16, 1, 128]⟩
abbrev S16x128x127 : Shape := ⟨3, ![16, 128, 127]⟩
abbrev S16x128x1 : Shape := ⟨3, ![16, 128, 1]⟩

abbrev nBuf : Space → Nat
  | .hbm => 3
  | .vmem => 4
  | .smem => 0
  | _ => 0

abbrev bufTy : (tb : Table) → Fin (tcTables nBuf tb) → BufTy
  | .hbm, ⟨0, _⟩ => ⟨S16x64x128x128x3x3, .f32⟩
  | .hbm, ⟨1, _⟩ => ⟨S16x64x3x3x128x128, .f32⟩
  | .hbm, ⟨2, _⟩ => ⟨S16x64x128x128, .f32⟩
  | .local _ .vmem, ⟨0, _⟩ => ⟨S1x16x3x3x128x128, .f32⟩
  | .local _ .vmem, ⟨1, _⟩ => ⟨S1x16x3x3x128x128, .f32⟩
  | .local _ .vmem, ⟨2, _⟩ => ⟨S1x16x128x128, .f32⟩
  | .local _ .vmem, ⟨3, _⟩ => ⟨S1x16x128x128, .f32⟩
  | _, _ => ⟨S16x64x128x128x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x3x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S16x64x128x128x3x3_S16x64x3x3x128x128_0_1_4_5_2_3 : S16x64x128x128x3x3.Transposes [0, 1, 4, 5, 2, 3] S16x64x3x3x128x128
  inb_S1x16x3x3x128x128_S1x16x1x1x128x128_0_0_0_0_0_0 : ∀ a, (![0, 0, 0, 0, 0, 0] : Fin 6 → Nat) a + S1x16x1x1x128x128.size a ≤ S1x16x3x3x128x128.size a
  h_S1x16x1x1x128x128 : 0 < S1x16x1x1x128x128.numel
  shapeCasts_S1x16x1x1x128x128_S16x128x128 : S1x16x1x1x128x128.ShapeCasts S16x128x128
  slices_S16x128x128_o0_1_0_S16x127x128 : S16x128x128.Slices ![0, 1, 0] S16x127x128
  concatenates_S16x127x128_S16x1x128_S16x128x128_d1 : Shape.Concatenates [S16x127x128, S16x1x128] S16x128x128 1
  slices_S16x128x128_o0_0_1_S16x128x127 : S16x128x128.Slices ![0, 0, 1] S16x128x127
  concatenates_S16x128x127_S16x128x1_S16x128x128_d2 : Shape.Concatenates [S16x128x127, S16x128x1] S16x128x128 2
  inb_S1x16x3x3x128x128_S1x16x1x1x128x128_0_0_0_1_0_0 : ∀ a, (![0, 0, 0, 1, 0, 0] : Fin 6 → Nat) a + S1x16x1x1x128x128.size a ≤ S1x16x3x3x128x128.size a
  inb_S1x16x3x3x128x128_S1x16x1x1x128x128_0_0_0_2_0_0 : ∀ a, (![0, 0, 0, 2, 0, 0] : Fin 6 → Nat) a + S1x16x1x1x128x128.size a ≤ S1x16x3x3x128x128.size a
  slices_S16x128x128_o0_0_0_S16x128x127 : S16x128x128.Slices ![0, 0, 0] S16x128x127
  concatenates_S16x128x1_S16x128x127_S16x128x128_d2 : Shape.Concatenates [S16x128x1, S16x128x127] S16x128x128 2
  inb_S1x16x3x3x128x128_S1x16x1x1x128x128_0_0_1_0_0_0 : ∀ a, (![0, 0, 1, 0, 0, 0] : Fin 6 → Nat) a + S1x16x1x1x128x128.size a ≤ S1x16x3x3x128x128.size a
  inb_S1x16x3x3x128x128_S1x16x1x1x128x128_0_0_1_1_0_0 : ∀ a, (![0, 0, 1, 1, 0, 0] : Fin 6 → Nat) a + S1x16x1x1x128x128.size a ≤ S1x16x3x3x128x128.size a
  inb_S1x16x3x3x128x128_S1x16x1x1x128x128_0_0_1_2_0_0 : ∀ a, (![0, 0, 1, 2, 0, 0] : Fin 6 → Nat) a + S1x16x1x1x128x128.size a ≤ S1x16x3x3x128x128.size a
  inb_S1x16x3x3x128x128_S1x16x1x1x128x128_0_0_2_0_0_0 : ∀ a, (![0, 0, 2, 0, 0, 0] : Fin 6 → Nat) a + S1x16x1x1x128x128.size a ≤ S1x16x3x3x128x128.size a
  slices_S16x128x128_o0_0_0_S16x127x128 : S16x128x128.Slices ![0, 0, 0] S16x127x128
  concatenates_S16x1x128_S16x127x128_S16x128x128_d1 : Shape.Concatenates [S16x1x128, S16x127x128] S16x128x128 1
  inb_S1x16x3x3x128x128_S1x16x1x1x128x128_0_0_2_1_0_0 : ∀ a, (![0, 0, 2, 1, 0, 0] : Fin 6 → Nat) a + S1x16x1x1x128x128.size a ≤ S1x16x3x3x128x128.size a
  inb_S1x16x3x3x128x128_S1x16x1x1x128x128_0_0_2_2_0_0 : ∀ a, (![0, 0, 2, 2, 0, 0] : Fin 6 → Nat) a + S1x16x1x1x128x128.size a ≤ S1x16x3x3x128x128.size a
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x3x3x128x128.size a ≤ S16x64x3x3x128x128.size a
  hwx0_0 : ∀ i : grid0.Coords, EltTy.bits .f32 = 32 ∨ (Rect.block (s := S16x64x3x3x128x128) S1x16x3x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S16x64x128x128.size a
  hwx0_1 : ∀ i : grid0.Coords, EltTy.bits .f32 = 32 ∨ (Rect.block (s := S16x64x128x128) S1x16x128x128.size (cc0_transform_1 i) (hinb0_1 i)).WholeWords (EltTy.packing .f32)

variable [Facts₀]

abbrev win0_0 : Pipeline.Window sig grid0 :=
  Pipeline.Window.ofSpec (Memref.whole main_v0) S1x16x3x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x128x128x3x3 : Shape := ⟨6, ![16, 64, 128, 128, 3, 3]⟩
abbrev S_ : Shape := ⟨0, ![]⟩
abbrev S16x64x130x130 : Shape := ⟨4, ![16, 64, 130, 130]⟩
abbrev S16x64x128x128x1x1 : Shape := ⟨6, ![16, 64, 128, 128, 1, 1]⟩
abbrev S16x64x128x128 : Shape := ⟨4, ![16, 64, 128, 128]⟩
abbrev S1 : Shape := ⟨1, ![1]⟩
abbrev S2 : Shape := ⟨1, ![2]⟩

abbrev nBuf : Space → Nat
  | .hbm => 76
  | .vmem => 0
  | .smem => 0
  | _ => 0

abbrev bufTy : (tb : Table) → Fin (tcTables nBuf tb) → BufTy
  | .hbm, ⟨0, _⟩ => ⟨S16x64x128x128x3x3, .f32⟩
  | .hbm, ⟨1, _⟩ => ⟨S_, .f32⟩
  | .hbm, ⟨2, _⟩ => ⟨S16x64x130x130, .f32⟩
  | .hbm, ⟨3, _⟩ => ⟨S16x64x128x128x1x1, .f32⟩
  | .hbm, ⟨4, _⟩ => ⟨S16x64x128x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S16x64x130x130, .f32⟩
  | .hbm, ⟨11, _⟩ => ⟨S16x64x128x128x1x1, .f32⟩
  | .hbm, ⟨12, _⟩ => ⟨S16x64x128x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S16x64x130x130, .f32⟩
  | .hbm, ⟨19, _⟩ => ⟨S16x64x128x128x1x1, .f32⟩
  | .hbm, ⟨20, _⟩ => ⟨S16x64x128x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S16x64x130x130, .f32⟩
  | .hbm, ⟨27, _⟩ => ⟨S16x64x128x128x1x1, .f32⟩
  | .hbm, ⟨28, _⟩ => ⟨S16x64x128x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S16x64x130x130, .f32⟩
  | .hbm, ⟨35, _⟩ => ⟨S16x64x128x128x1x1, .f32⟩
  | .hbm, ⟨36, _⟩ => ⟨S16x64x128x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S16x64x130x130, .f32⟩
  | .hbm, ⟨43, _⟩ => ⟨S16x64x128x128x1x1, .f32⟩
  | .hbm, ⟨44, _⟩ => ⟨S16x64x128x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S16x64x130x130, .f32⟩
  | .hbm, ⟨51, _⟩ => ⟨S16x64x128x128x1x1, .f32⟩
  | .hbm, ⟨52, _⟩ => ⟨S16x64x128x128, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S16x64x130x130, .f32⟩
  | .hbm, ⟨59, _⟩ => ⟨S16x64x128x128x1x1, .f32⟩
  | .hbm, ⟨60, _⟩ => ⟨S16x64x128x128, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S16x64x130x130, .f32⟩
  | .hbm, ⟨67, _⟩ => ⟨S16x64x128x128x1x1, .f32⟩
  | .hbm, ⟨68, _⟩ => ⟨S16x64x128x128, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S16x64x130x130, .f32⟩
  | .hbm, ⟨75, _⟩ => ⟨S16x64x128x128, .f32⟩
  | _, _ => ⟨S16x64x128x128x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_c_10 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_11 : Ref sig .tc := ⟨.hbm, 53, rfl⟩
abbrev main_v39 : Ref sig .tc := ⟨.hbm, 54, rfl⟩
abbrev main_c_12 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_13 : Ref sig .tc := ⟨.hbm, 61, rfl⟩
abbrev main_v45 : Ref sig .tc := ⟨.hbm, 62, rfl⟩
abbrev main_c_14 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_15 : Ref sig .tc := ⟨.hbm, 69, rfl⟩
abbrev main_v51 : Ref sig .tc := ⟨.hbm, 70, rfl⟩
abbrev main_c_16 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  bcast_S_S16x64x130x130 : S_.BroadcastsInDim S16x64x130x130 (![] : Fin 0 → Fin S16x64x130x130.rank)
  slices_S16x64x128x128x3x3_S16x64x128x128x1x1_0_0_0_0_0_0 : S16x64x128x128x3x3.Slices ![0, 0, 0, 0, 0, 0] S16x64x128x128x1x1
  shapeCasts_S16x64x128x128x1x1_S16x64x128x128 : S16x64x128x128x1x1.ShapeCasts S16x64x128x128
  bcast_S_S1 : S_.BroadcastsInDim S1 (![] : Fin 0 → Fin S1.rank)
  concatenates_S1_S1_S2_d0 : Shape.Concatenates [S1, S1] S2 0
  slices_S16x64x128x128x3x3_S16x64x128x128x1x1_0_0_0_0_0_1 : S16x64x128x128x3x3.Slices ![0, 0, 0, 0, 0, 1] S16x64x128x128x1x1
  slices_S16x64x128x128x3x3_S16x64x128x128x1x1_0_0_0_0_0_2 : S16x64x128x128x3x3.Slices ![0, 0, 0, 0, 0, 2] S16x64x128x128x1x1
  slices_S16x64x128x128x3x3_S16x64x128x128x1x1_0_0_0_0_1_0 : S16x64x128x128x3x3.Slices ![0, 0, 0, 0, 1, 0] S16x64x128x128x1x1
  slices_S16x64x128x128x3x3_S16x64x128x128x1x1_0_0_0_0_1_1 : S16x64x128x128x3x3.Slices ![0, 0, 0, 0, 1, 1] S16x64x128x128x1x1
  slices_S16x64x128x128x3x3_S16x64x128x128x1x1_0_0_0_0_1_2 : S16x64x128x128x3x3.Slices ![0, 0, 0, 0, 1, 2] S16x64x128x128x1x1
  slices_S16x64x128x128x3x3_S16x64x128x128x1x1_0_0_0_0_2_0 : S16x64x128x128x3x3.Slices ![0, 0, 0, 0, 2, 0] S16x64x128x128x1x1
  slices_S16x64x128x128x3x3_S16x64x128x128x1x1_0_0_0_0_2_1 : S16x64x128x128x3x3.Slices ![0, 0, 0, 0, 2, 1] S16x64x128x128x1x1
  slices_S16x64x128x128x3x3_S16x64x128x128x1x1_0_0_0_0_2_2 : S16x64x128x128x3x3.Slices ![0, 0, 0, 0, 2, 2] S16x64x128x128x1x1
  slices_S16x64x130x130_S16x64x128x128_0_0_1_1 : S16x64x130x130.Slices ![0, 0, 1, 1] S16x64x128x128
  scatter_S16x64x130x130_S2_S16x64x128x128_0123_n_23_0_wf : ScatterDims.WF S16x64x130x130 S2 S16x64x128x128 [0, 1, 2, 3] [] [2, 3] 0

variable [Facts₀]

def scatter_S16x64x130x130_S2_S16x64x128x128_0123_n_23_0 : ScatterDims S16x64x130x130 S2 S16x64x128x128 where
  updateWindowDims := [0, 1, 2, 3]
  insertedWindowDims := []
  scatterDimsToOperandDims := [2, 3]
  indexVectorDim := 0
  wf := scatter_S16x64x130x130_S2_S16x64x128x128_0123_n_23_0_wf

class Facts : Prop extends Facts₀ where

variable [Facts]
-- ==== Proof.FoldSpec.lean ====
/-
  The fold (col2im) of 3×3 patches at stride 1, padding 1, as ONE function of the patch array.

  `cols[n, ch, p, q, a, b]` is entry `(a, b)` of the 3×3 patch whose window starts at row `p`, column `q` of the
  padded image (130 × 130); the patch entry sits at padded position `(p + a, q + b)`, that is at position
  `(p + a - 1, q + b - 1)` of the 128 × 128 image once the one-pixel border is cropped. So output pixel `(h, w)`
  receives, for each of the nine `(a, b)`, the entry of the patch at `p = h + 1 - a`, `q = w + 1 - b` when that
  patch exists (`0 ≤ p, q < 128`), and nothing otherwise:

      out[n, ch, h, w] = ∑_{a, b} [0 ≤ h + 1 - a < 128] [0 ≤ w + 1 - b < 128] cols[n, ch, h + 1 - a, w + 1 - b, a, b].

  `shift1 a` is the one-axis form of the bracket: a row of 128 numbers moved by `1 - a` places, zero where it has
  no source. `tap` is one summand (the column shift of the row shift of plane `(a, b)`), and `foldAt` the nine
  summands added to zero in the order `(0,0), (0,1), …, (2,2)` — the order in which both programs add them, so
  that no rearrangement of the sum is needed, only `x + 0 = x` where a program adds a padding zero and the other
  adds nothing.
-/
import Idealize.ShloMosaic.PureOps.Ideal
import Idealize.ShloMosaic.Lib.ValueIdx
import Idealize.ShloMosaic.Lib.ValueIdxRank6

noncomputable section

namespace Cert.FoldSpec

open Idealize.ShloMosaic Idealize.ShloMosaic.ValueIdx

/-- A row `x` of 128 extended reals moved by `1 - a` places: position `p` reads `x (p + 1 - a)` when that is a
    position of the row, and is zero otherwise (`a = 0`: one place down, the last position zero; `a = 1`: the row
    itself; `a = 2`: one place up, the first position zero). -/
def shift1 (a : Fin 3) (x : Fin 128 → EReal) (p : Fin 128) : EReal :=
  if h : a.val ≤ p.val + 1 ∧ p.val + 1 - a.val < 128 then x ⟨p.val + 1 - a.val, h.2⟩ else 0

/-- Offset 1 moves nothing. -/
theorem shift1_one (x : Fin 128 → EReal) (p : Fin 128) : shift1 1 x p = x p := by
  unfold shift1
  rw [dif_pos ⟨by show 1 ≤ p.val + 1; omega, by show p.val + 1 - 1 < 128; have := p.isLt; omega⟩]
  exact congrArg x (Fin.ext (by show p.val + 1 - 1 = p.val; omega))

/-- Offset 0 reads the next position, zero at the last. -/
theorem shift1_zero (x : Fin 128 → EReal) (p : Fin 128) :
    shift1 0 x p = if h : p.val + 1 < 128 then x ⟨p.val + 1, h⟩ else 0 := by
  unfold shift1
  by_cases h : p.val + 1 < 128
  · rw [dif_pos h, dif_pos ⟨Nat.zero_le _, by show p.val + 1 - 0 < 128; omega⟩]
    exact congrArg x (Fin.ext (by show p.val + 1 - 0 = p.val + 1; omega))
  · rw [dif_neg h, dif_neg (fun hh => h (by have := hh.2; show p.val + 1 < 128; change p.val + 1 - 0 < 128 at this; omega))]

/-- Offset 2 reads the previous position, zero at the first. -/
theorem shift1_two (x : Fin 128 → EReal) (p : Fin 128) :
    shift1 2 x p = if h : 1 ≤ p.val then x ⟨p.val - 1, by have := p.isLt; omega⟩ else 0 := by
  unfold shift1
  by_cases h : 1 ≤ p.val
  · rw [dif_pos h, dif_pos ⟨by show 2 ≤ p.val + 1; omega, by show p.val + 1 - 2 < 128; have := p.isLt; omega⟩]
    exact congrArg x (Fin.ext (by show p.val + 1 - 2 = p.val - 1; omega))
  · rw [dif_neg h, dif_neg (fun hh => h (by have := hh.1; change 2 ≤ p.val + 1 at this; omega))]

/-- THE SUMMAND of patch entry `(a, b)` at output pixel `(h, w)` of image `(n, ch)`: the plane
    `(p, q) ↦ cols[n, ch, p, q, a, b]` moved by `1 - a` rows and `1 - b` columns. -/
def tap (cols : (⟨6, ![16, 64, 128, 128, 3, 3]⟩ : Shape).Idx → EReal) (a b : Fin 3)
    (n : Fin 16) (ch : Fin 64) (h w : Fin 128) : EReal :=
  shift1 b (fun q => shift1 a (fun p => cols (ix6 n ch p q a b)) h) w

/-- The summand as one bracket: the patch entry when both source coordinates exist, zero otherwise. -/
theorem tap_eq (cols : (⟨6, ![16, 64, 128, 128, 3, 3]⟩ : Shape).Idx → EReal) (a b : Fin 3)
    (n : Fin 16) (ch : Fin 64) (h w : Fin 128) :
    tap cols a b n ch h w =
      if hc : (a.val ≤ h.val + 1 ∧ h.val + 1 - a.val < 128) ∧ (b.val ≤ w.val + 1 ∧ w.val + 1 - b.val < 128) then
        cols (ix6 n ch ⟨h.val + 1 - a.val, hc.1.2⟩ ⟨w.val + 1 - b.val, hc.2.2⟩ a b)
      else 0 := by
  unfold tap shift1
  by_cases hw : b.val ≤ w.val + 1 ∧ w.val + 1 - b.val < 128
  · by_cases hh : a.val ≤ h.val + 1 ∧ h.val + 1 - a.val < 128
    · rw [dif_pos hw]; beta_reduce; rw [dif_pos hh, dif_pos ⟨hh, hw⟩]
    · rw [dif_pos hw]; beta_reduce; rw [dif_neg hh, dif_neg (fun hc => hh hc.1)]
  · rw [dif_neg hw, dif_neg (fun hc => hw hc.2)]

/-- THE FOLD at one pixel: the nine summands added to zero, row of the patch by row, left to right. -/
def foldAt (cols : (⟨6, ![16, 64, 128, 128, 3, 3]⟩ : Shape).Idx → EReal) (n : Fin 16) (ch : Fin 64) (h w : Fin 128) : EReal :=
  0 + tap cols 0 0 n ch h w + tap cols 0 1 n ch h w + tap cols 0 2 n ch h w
    + tap cols 1 0 n ch h w + tap cols 1 1 n ch h w + tap cols 1 2 n ch h w
    + tap cols 2 0 n ch h w + tap cols 2 1 n ch h w + tap cols 2 2 n ch h w

/-- THE FOLD as a function from the patch array to the image array. -/
def fold (cols : (⟨6, ![16, 64, 128, 128, 3, 3]⟩ : Shape).Idx → EReal) : (⟨4, ![16, 64, 128, 128]⟩ : Shape).Idx → EReal :=
  fun i => foldAt cols (i 0) (i 1) (i 2) (i 3)

theorem fold_ix4 (cols : (⟨6, ![16, 64, 128, 128, 3, 3]⟩ : Shape).Idx → EReal) (n : Fin 16) (ch : Fin 64) (h w : Fin 128) :
    fold cols (ix4 n ch h w) = foldAt cols n ch h w := rfl

end Cert.FoldSpec

end
-- ==== Proof.KernelShift.lean ====
/-
  The kernel's layout operations read at an index.

  The kernel body never scatters. For each patch entry `(a, b)` it loads the plane `[16, 128, 128]` of that entry
  from its block of the (transposed) patch array (`load_plane`), moves it by `1 - a` rows and `1 - b` columns, and
  adds it to the accumulator. A move by one place is a slice that drops the first (or last) row or column followed by
  a concatenation with one row or column of zeros on the other side:

      rows, a = 0:  [x[1:], 0]   position h reads x[h + 1], the last row is zero      (`rows_next`)
      rows, a = 2:  [0, x[:127]] position h reads x[h - 1], the first row is zero     (`rows_prev`)
      columns, b = 0 and b = 2: the same along the last axis                          (`cols_next`, `cols_prev`)

  and `a = 1` / `b = 1` move nothing. Each is stated as the specification's one-axis `shift1` of the row (or column)
  through the index, so that a row move followed by a column move reads as the specification's summand.
-/
import Idealize.ShloMosaic.Lib.Pipeline.Value
import Idealize.ShloMosaic.Lib.ValueLayout
import Idealize.ShloMosaic.Lib.Pipeline.FrameBody
import proofs.«122294_j31980326486781_1_alg».proof.Proof.FoldSpec

noncomputable section

namespace Cert.FoldKernel

open Idealize.ShloMosaic Idealize.ShloMosaic.ValueIdx Cert.FoldSpec

/-- A plane of one block, the plane less a row / a column, one row / one column; the block of the transposed patch
    array, its one-entry sub-block, and the block of the image. -/
abbrev S3 : Shape := ⟨3, ![16, 128, 128]⟩
abbrev S3h : Shape := ⟨3, ![16, 127, 128]⟩
abbrev S3h1 : Shape := ⟨3, ![16, 1, 128]⟩
abbrev S3w : Shape := ⟨3, ![16, 128, 127]⟩
abbrev S3w1 : Shape := ⟨3, ![16, 128, 1]⟩
abbrev SB6 : Shape := ⟨6, ![1, 16, 3, 3, 128, 128]⟩
abbrev SB61 : Shape := ⟨6, ![1, 16, 1, 1, 128, 128]⟩
abbrev SB4 : Shape := ⟨4, ![1, 16, 128, 128]⟩

/-! ## One place along the rows -/

/-- The plane less its first row, then one row of `z`: position `h` reads row `h + 1`, the last row is `z`. -/
theorem rows_next (x : S3.Idx → EReal) (z : EReal) (hz : z = 0) (hs : S3.Slices ![0, 1, 0] S3h)
    (hc : Shape.Concatenates [S3h, S3h1] S3 1) (c : Fin 16) (h w : Fin 128) :
    concatenate S3 1 [⟨S3h, extractStridedSlice S3h ![0, 1, 0] x hs⟩, ⟨S3h1, broadcast S3h1 z⟩] hc (ix3 c h w)
      = shift1 0 (fun p => x (ix3 c p w)) h := by
  subst hz
  rw [shift1_zero]
  by_cases hh : h.val + 1 < 128
  · rw [dif_pos hh]
    refine (concatenate_pair_apply_left 1 _ _ hc (ix3 c h w) rfl (ix3 c (⟨h.val, by omega⟩ : Fin 127) w) (fun b => by
      match b with
      | ⟨0, _⟩ => rfl
      | ⟨1, _⟩ => rfl
      | ⟨2, _⟩ => rfl)).trans ?_
    exact slice3_axis1_apply 1 x hs c (⟨h.val, by omega⟩ : Fin 127) w ⟨h.val + 1, hh⟩ (by show h.val + 1 = 1 + h.val; omega)
  · rw [dif_neg hh]
    exact concatenate_pair_apply_right 1 _ _ hc (ix3 c h w) rfl rfl (ix3 c (⟨0, by decide⟩ : Fin 1) w) (fun b hb => by
      match b with
      | ⟨0, _⟩ => rfl
      | ⟨1, _⟩ => exact absurd (Fin.ext rfl) hb
      | ⟨2, _⟩ => rfl) (by show 0 + 127 = h.val; have := h.isLt; omega)

/-- One row of `z`, then the plane less its last row: position `h` reads row `h - 1`, the first row is `z`. -/
theorem rows_prev (x : S3.Idx → EReal) (z : EReal) (hz : z = 0) (hs : S3.Slices ![0, 0, 0] S3h)
    (hc : Shape.Concatenates [S3h1, S3h] S3 1) (c : Fin 16) (h w : Fin 128) :
    concatenate S3 1 [⟨S3h1, broadcast S3h1 z⟩, ⟨S3h, extractStridedSlice S3h ![0, 0, 0] x hs⟩] hc (ix3 c h w)
      = shift1 2 (fun p => x (ix3 c p w)) h := by
  subst hz
  rw [shift1_two]
  by_cases hh : 1 ≤ h.val
  · rw [dif_pos hh]
    have hl : h.val - 1 < 127 := by have := h.isLt; omega
    refine (concatenate_pair_apply_right 1 _ _ hc (ix3 c h w) rfl rfl (ix3 c (⟨h.val - 1, hl⟩ : Fin 127) w) (fun b hb => by
      match b with
      | ⟨0, _⟩ => rfl
      | ⟨1, _⟩ => exact absurd (Fin.ext rfl) hb
      | ⟨2, _⟩ => rfl) (by show h.val - 1 + 1 = h.val; omega)).trans ?_
    exact slice3_axis1_apply 0 x hs c (⟨h.val - 1, hl⟩ : Fin 127) w ⟨h.val - 1, by omega⟩ (by show h.val - 1 = 0 + (h.val - 1); omega)
  · rw [dif_neg hh]
    exact concatenate_pair_apply_left 1 _ _ hc (ix3 c h w) rfl (ix3 c (⟨0, by decide⟩ : Fin 1) w) (fun b => by
      match b with
      | ⟨0, _⟩ => rfl
      | ⟨1, _⟩ => show 0 = h.val; omega
      | ⟨2, _⟩ => rfl)

/-! ## One place along the columns -/

/-- A slice of the plane along its last axis from `o`. -/
theorem slice3_axis2 (o : Nat) (x : S3.Idx → EReal) (hs : S3.Slices ![0, 0, o] S3w) (c : Fin 16) (h : Fin 128) (j : Fin 127)
    (k : Fin 128) (hk : k.val = o + j.val) : extractStridedSlice S3w ![0, 0, o] x hs (ix3 c h j) = x (ix3 c h k) :=
  extractStridedSlice_apply _ x hs (ix3 c h j) (ix3 c h k) (fun a => by
    match a with
    | ⟨0, _⟩ => exact (Nat.zero_add _).symm
    | ⟨1, _⟩ => exact (Nat.zero_add _).symm
    | ⟨2, _⟩ => exact hk)

/-- The plane less its first column, then one column of `z`: position `w` reads column `w + 1`, the last is `z`. -/
theorem cols_next (x : S3.Idx → EReal) (z : EReal) (hz : z = 0) (hs : S3.Slices ![0, 0, 1] S3w)
    (hc : Shape.Concatenates [S3w, S3w1] S3 2) (c : Fin 16) (h w : Fin 128) :
    concatenate S3 2 [⟨S3w, extractStridedSlice S3w ![0, 0, 1] x hs⟩, ⟨S3w1, broadcast S3w1 z⟩] hc (ix3 c h w)
      = shift1 0 (fun q => x (ix3 c h q)) w := by
  subst hz
  rw [shift1_zero]
  by_cases hw : w.val + 1 < 128
  · rw [dif_pos hw]
    refine (concatenate_pair_apply_left 2 _ _ hc (ix3 c h w) rfl (ix3 c h (⟨w.val, by omega⟩ : Fin 127)) (fun b => by
      match b with
      | ⟨0, _⟩ => rfl
      | ⟨1, _⟩ => rfl
      | ⟨2, _⟩ => rfl)).trans ?_
    exact slice3_axis2 1 x hs c h (⟨w.val, by omega⟩ : Fin 127) ⟨w.val + 1, hw⟩ (by show w.val + 1 = 1 + w.val; omega)
  · rw [dif_neg hw]
    exact concatenate_pair_apply_right 2 _ _ hc (ix3 c h w) rfl rfl (ix3 c h (⟨0, by decide⟩ : Fin 1)) (fun b hb => by
      match b with
      | ⟨0, _⟩ => rfl
      | ⟨1, _⟩ => rfl
      | ⟨2, _⟩ => exact absurd (Fin.ext rfl) hb) (by show 0 + 127 = w.val; have := w.isLt; omega)

/-- One column of `z`, then the plane less its last column: position `w` reads column `w - 1`, the first is `z`. -/
theorem cols_prev (x : S3.Idx → EReal) (z : EReal) (hz : z = 0) (hs : S3.Slices ![0, 0, 0] S3w)
    (hc : Shape.Concatenates [S3w1, S3w] S3 2) (c : Fin 16) (h w : Fin 128) :
    concatenate S3 2 [⟨S3w1, broadcast S3w1 z⟩, ⟨S3w, extractStridedSlice S3w ![0, 0, 0] x hs⟩] hc (ix3 c h w)
      = shift1 2 (fun q => x (ix3 c h q)) w := by
  subst hz
  rw [shift1_two]
  by_cases hw : 1 ≤ w.val
  · rw [dif_pos hw]
    have hl : w.val - 1 < 127 := by have := w.isLt; omega
    refine (concatenate_pair_apply_right 2 _ _ hc (ix3 c h w) rfl rfl (ix3 c h (⟨w.val - 1, hl⟩ : Fin 127)) (fun b hb => by
      match b with
      | ⟨0, _⟩ => rfl
      | ⟨1, _⟩ => rfl
      | ⟨2, _⟩ => exact absurd (Fin.ext rfl) hb) (by show w.val - 1 + 1 = w.val; omega)).trans ?_
    exact slice3_axis2 0 x hs c h (⟨w.val - 1, hl⟩ : Fin 127) ⟨w.val - 1, by omega⟩ (by show w.val - 1 = 0 + (w.val - 1); omega)
  · rw [dif_neg hw]
    exact concatenate_pair_apply_left 2 _ _ hc (ix3 c h w) rfl (ix3 c h (⟨0, by decide⟩ : Fin 1)) (fun b => by
      match b with
      | ⟨0, _⟩ => rfl
      | ⟨1, _⟩ => rfl
      | ⟨2, _⟩ => show 0 = w.val; omega)

/-! ## The plane of one patch entry, loaded from the block -/

/-- The block's sub-rectangle at patch entry `(A, B)` with its unit axes dropped is the plane
    `(c, p, q) ↦ block[0, c, A, B, p, q]`. -/
theorem load_plane (x0 : Vec Ideal SB6 .f32) (A B : Fin 3) (off : Fin 6 → ℕ) (hoff : off = ![0, 0, A.val, B.val, 0, 0])
    (inb : ∀ a, off a + SB61.size a ≤ SB6.size a) (hc : SB61.ShapeCasts S3) (c : Fin 16) (p q : Fin 128) :
    shapeCast S3 (View.ld x0 (Rect.unit off SB61.size inb)) hc (ix3 c p q) = x0 (ix6 0 c A B p q) := by
  subst hoff
  refine (shapeCast_apply _ hc (ix3 c p q) (ix6 (0 : Fin 1) c (0 : Fin 1) (0 : Fin 1) p q) ?_).trans ?_
  · rw [Shape.rowMajor_val_six, Shape.rowMajor_val_three]
    show (((((0 * 16 + c.val) * 1 + 0) * 1 + 0) * 128 + p.val) * 128 + q.val) = (c.val * 128 + p.val) * 128 + q.val
    omega
  · exact congrArg x0 (funext fun a => Fin.ext (by
      match a with
      | ⟨0, _⟩ => rfl
      | ⟨1, _⟩ => show 0 + 1 * c.val = c.val; omega
      | ⟨2, _⟩ => show A.val + 1 * 0 = A.val; omega
      | ⟨3, _⟩ => show B.val + 1 * 0 = B.val; omega
      | ⟨4, _⟩ => show 0 + 1 * p.val = p.val; omega
      | ⟨5, _⟩ => show 0 + 1 * q.val = q.val; omega))

/-- The image block with its leading unit axis added back, read at `(0, c, h, w)`. -/
theorem block_apply (v : S3.Idx → EReal) (hc : S3.ShapeCasts SB4) (c : Fin 16) (h w : Fin 128) :
    shapeCast SB4 v hc (ix4 (0 : Fin 1) c h w) = v (ix3 c h w) := by
  refine shapeCast_apply v hc _ _ ?_
  rw [Shape.rowMajor_val_three, Shape.rowMajor_val_four]
  show (c.val * 128 + h.val) * 128 + w.val = ((0 * 16 + c.val) * 128 + h.val) * 128 + w.val
  omega

end Cert.FoldKernel

end
-- ==== Proof.KernelPayload.lean ====
/-
  What the kernel body stores, read at an index of its output block.

  The body keeps an accumulator `[16, 128, 128]` that starts at zero; for the nine patch entries `(a, b)` in the order
  `(0,0), (0,1), …, (2,2)` it loads the plane of that entry from the input block, moves it `1 - a` rows and `1 - b`
  columns with zeros moved in (KernelShift), and adds it; the sum is stored as the output block. At block index
  `(0, c, h, w)` the stored value is therefore zero plus, in that order, the column shift of the row shift of each
  plane through `(c, ·, ·)` — the specification's nine summands once the planes are those of the patch array.
  `pl a b p q` stands for the input block's element `[0, c, a, b, p, q]`.
-/
import proofs.«122294_j31980326486781_1_alg».proof.Proof.Gen.KernelIdeal.Frame
import proofs.«122294_j31980326486781_1_alg».proof.Proof.KernelShift
import Idealize.ShloMosaic.PureOps.Ideal.Laws

noncomputable section

namespace Cert.FoldKernel

open Cert.KernelIdeal Cert.KernelIdeal.Gen Idealize.ShloMosaic Idealize.ShloMosaic.ValueIdx Cert.FoldSpec

/-- THE STORED VALUE at `(0, c, h, w)`: zero plus the nine moved planes, patch row by patch row. -/
theorem payload_at (x0 : Vec Ideal S1x16x3x3x128x128 .f32) (pl : Fin 3 → Fin 3 → Fin 128 → Fin 128 → EReal) (c : Fin 16)
    (hpl : ∀ (a b : Fin 3) (p q : Fin 128), x0 (ix6 (0 : Fin 1) c a b p q) = pl a b p q) (h w : Fin 128) :
    k0_pay1 (k0_pay4 (k0_pay2 (View.ld x0 r0_0) (View.ld x0 r0_1) (View.ld x0 r0_2)) (k0_pay3 (View.ld x0 r0_3))
        (View.ld x0 r0_4) (View.ld x0 r0_5) (View.ld x0 r0_6) (View.ld x0 r0_7)) (View.ld x0 r0_8) (ix4 (0 : Fin 1) c h w)
      = 0 + shift1 0 (fun q => shift1 0 (fun p => pl 0 0 p q) h) w
          + shift1 1 (fun q => shift1 0 (fun p => pl 0 1 p q) h) w
          + shift1 2 (fun q => shift1 0 (fun p => pl 0 2 p q) h) w
          + shift1 0 (fun q => shift1 1 (fun p => pl 1 0 p q) h) w
          + shift1 1 (fun q => shift1 1 (fun p => pl 1 1 p q) h) w
          + shift1 2 (fun q => shift1 1 (fun p => pl 1 2 p q) h) w
          + shift1 0 (fun q => shift1 2 (fun p => pl 2 0 p q) h) w
          + shift1 1 (fun q => shift1 2 (fun p => pl 2 1 p q) h) w
          + shift1 2 (fun q => shift1 2 (fun p => pl 2 2 p q) h) w := by
  -- the nine planes, read at an index
  have l0 : ∀ (hc : S1x16x1x1x128x128.ShapeCasts S16x128x128) (p q : Fin 128),
      shapeCast S16x128x128 (View.ld x0 r0_0) hc (ix3 c p q) = pl 0 0 p q :=
    fun hc p q => (load_plane x0 0 0 _ rfl _ hc c p q).trans (hpl 0 0 p q)
  have l1 : ∀ (hc : S1x16x1x1x128x128.ShapeCasts S16x128x128) (p q : Fin 128),
      shapeCast S16x128x128 (View.ld x0 r0_1) hc (ix3 c p q) = pl 0 1 p q :=
    fun hc p q => (load_plane x0 0 1 _ rfl _ hc c p q).trans (hpl 0 1 p q)
  have l2 : ∀ (hc : S1x16x1x1x128x128.ShapeCasts S16x128x128) (p q : Fin 128),
      shapeCast S16x128x128 (View.ld x0 r0_2) hc (ix3 c p q) = pl 0 2 p q :=
    fun hc p q => (load_plane x0 0 2 _ rfl _ hc c p q).trans (hpl 0 2 p q)
  have l3 : ∀ (hc : S1x16x1x1x128x128.ShapeCasts S16x128x128) (p q : Fin 128),
      shapeCast S16x128x128 (View.ld x0 r0_3) hc (ix3 c p q) = pl 1 0 p q :=
    fun hc p q => (load_plane x0 1 0 _ rfl _ hc c p q).trans (hpl 1 0 p q)
  have l4 : ∀ (hc : S1x16x1x1x128x128.ShapeCasts S16x128x128) (p q : Fin 128),
      shapeCast S16x128x128 (View.ld x0 r0_4) hc (ix3 c p q) = pl 1 1 p q :=
    fun hc p q => (load_plane x0 1 1 _ rfl _ hc c p q).trans (hpl 1 1 p q)
  have l5 : ∀ (hc : S1x16x1x1x128x128.ShapeCasts S16x128x128) (p q : Fin 128),
      shapeCast S16x128x128 (View.ld x0 r0_5) hc (ix3 c p q) = pl 1 2 p q :=
    fun hc p q => (load_plane x0 1 2 _ rfl _ hc c p q).trans (hpl 1 2 p q)
  have l6 : ∀ (hc : S1x16x1x1x128x128.ShapeCasts S16x128x128) (p q : Fin 128),
      shapeCast S16x128x128 (View.ld x0 r0_6) hc (ix3 c p q) = pl 2 0 p q :=
    fun hc p q => (load_plane x0 2 0 _ rfl _ hc c p q).trans (hpl 2 0 p q)
  have l7 : ∀ (hc : S1x16x1x1x128x128.ShapeCasts S16x128x128) (p q : Fin 128),
      shapeCast S16x128x128 (View.ld x0 r0_7) hc (ix3 c p q) = pl 2 1 p q :=
    fun hc p q => (load_plane x0 2 1 _ rfl _ hc c p q).trans (hpl 2 1 p q)
  have l8 : ∀ (hc : S1x16x1x1x128x128.ShapeCasts S16x128x128) (p q : Fin 128),
      shapeCast S16x128x128 (View.ld x0 r0_8) hc (ix3 c p q) = pl 2 2 p q :=
    fun hc p q => (load_plane x0 2 2 _ rfl _ hc c p q).trans (hpl 2 2 p q)
  unfold k0_pay1 k0_pay4 k0_pay2 k0_pay3
  dsimp only
  rw [block_apply]
  -- the sum at the index is the sum of the summands at the index; the padding word is zero
  simp only [addf_apply, broadcast_apply, Ideal.ofBits_def]
  -- each slice-and-pad is a one-place shift of a row or of a column through the index
  -- (the padding word is met both as the word and, once rewritten, as the number zero)
  simp only [cols_next _ 0 rfl, cols_prev _ 0 rfl, rows_next _ 0 rfl, rows_prev _ 0 rfl,
    cols_next _ _ Ideal.ofBits_zero_f32, cols_prev _ _ Ideal.ofBits_zero_f32,
    rows_next _ _ Ideal.ofBits_zero_f32, rows_prev _ _ Ideal.ofBits_zero_f32, Ideal.ofBits_zero_f32]
  -- the planes; a shift by offset 1 moves nothing
  simp only [l0, l1, l2, l3, l4, l5, l6, l7, l8, shift1_one]

end Cert.FoldKernel

end
-- ==== Proof.KernelValue.lean ====
/-
  The kernel's result array is the fold of the patch array.

  The host transposes the patch array `[16, 64, 128, 128, 3, 3]` to `[16, 64, 3, 3, 128, 128]` (patch entry before
  position); the grid has one point per image `n` and per group `g` of 16 channels; the point `(n, g)` reads block
  `[n, 16g : 16g + 16, :, :, :, :]` of the transposed array and writes block `[n, 16g : 16g + 16, :, :]` of the result.
  So element `[0, c, a, b, p, q]` of the point's input block is `cols[n, 16g + c, p, q, a, b]`, the value the body stores
  at `(0, c, h, w)` is the fold of `cols` at `(n, 16g + c, h, w)` (KernelPayload), which is the result array's index
  under the output block at that place; the 64 output blocks tile the result array, so the whole array is the fold.
-/
import proofs.«122294_j31980326486781_1_alg».proof.Proof.Gen.KernelIdeal.Value
import proofs.«122294_j31980326486781_1_alg».proof.Proof.KernelPayload
import Idealize.ShloMosaic.Lib.StableHlo.Run

set_option maxRecDepth 16384

noncomputable section

namespace Cert.FoldKernel

open Cert.KernelIdeal Cert.KernelIdeal.Gen Idealize.ShloMosaic Idealize.ShloMosaic.TcCoe Idealize.SL.Sem
open Idealize.ShloMosaic.ValueIdx Cert.FoldSpec
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-! ## The array the input window reads -/

/-- The region finds in the input window's array the transposed patch array. -/
theorem entry_array (c : Dev nD) :
    (V m c main_v0 : S16x64x3x3x128x128.Idx → EReal)
      = transpose S16x64x3x3x128x128 [0, 1, 4, 5, 2, 3] (m ((c : Thread nD τ).loc main_arg0))
          transposes_S16x64x128x128x3x3_S16x64x3x3x128x128_0_1_4_5_2_3 := by
  dsimp only [V, hostOps0]; after_results

/-- Entry `(a, b)` before position `(p, q)` there is position `(p, q)` before entry `(a, b)` in the argument. -/
theorem entry_array_apply (c : Dev nD) (n : Fin 16) (ch : Fin 64) (a b : Fin 3) (p q : Fin 128) :
    (V m c main_v0 : S16x64x3x3x128x128.Idx → EReal) (ix6 n ch a b p q) = m ((c : Thread nD τ).loc main_arg0) (ix6 n ch p q a b) := by
  rw [entry_array]
  exact transpose_apply _ _ _ (ix6 n ch a b p q) (ix6 n ch p q a b) (fun k => by
    match k with
    | ⟨0, _⟩ => rfl
    | ⟨1, _⟩ => rfl
    | ⟨2, _⟩ => rfl
    | ⟨3, _⟩ => rfl
    | ⟨4, _⟩ => rfl
    | ⟨5, _⟩ => rfl)

/-! ## The index maps over the grid -/

/-- The two windows' block indices at every grid point: both move with the image and the channel group and stay
    at zero on the other axes; the image index is below 16 and the group index below 4. -/
theorem index_facts : ∀ t : Fin cfg0.N,
    win0_0.index t (0 : Fin 6) = win0_1.index t (0 : Fin 4) ∧ win0_0.index t (1 : Fin 6) = win0_1.index t (1 : Fin 4)
    ∧ win0_0.index t (2 : Fin 6) = 0 ∧ win0_0.index t (3 : Fin 6) = 0 ∧ win0_0.index t (4 : Fin 6) = 0 ∧ win0_0.index t (5 : Fin 6) = 0
    ∧ win0_1.index t (2 : Fin 4) = 0 ∧ win0_1.index t (3 : Fin 4) = 0
    ∧ win0_1.index t (0 : Fin 4) ≤ 15 ∧ win0_1.index t (1 : Fin 4) ≤ 3 :=
  (by decide +kernel : ∀ t : Fin grid0.N, _)

/-- Every (image, channel group) is some grid point's. -/
theorem index_onto : ∀ (q0 : Fin 16) (q1 : Fin 4), ∃ t : Fin cfg0.N, win0_1.index t = ![q0.val, q1.val, 0, 0] :=
  (by decide +kernel : ∀ (q0 : Fin 16) (q1 : Fin 4), ∃ t : Fin grid0.N, win0_1.index t = ![q0.val, q1.val, 0, 0])

/-! ## What a grid point writes back -/

/-- The body's stored value over the point's input block, at any index of the output block, is the fold at the
    result array's index under it. -/
theorem stored_eq_fold (x0 : Vec Ideal S1x16x3x3x128x128 .f32) (cols : S16x64x128x128x3x3.Idx → EReal) (n : Fin 16) (g : ℕ) (hg : g ≤ 3)
    (hx : ∀ (c' : Fin 16) (a b : Fin 3) (p q : Fin 128),
      x0 (ix6 (0 : Fin 1) c' a b p q) = cols (ix6 n (⟨g * 16 + c'.val, by have := c'.isLt; omega⟩ : Fin 64) p q a b))
    (y : S1x16x128x128.Idx) :
    k0_pay1 (k0_pay4 (k0_pay2 (View.ld x0 r0_0) (View.ld x0 r0_1) (View.ld x0 r0_2)) (k0_pay3 (View.ld x0 r0_3))
        (View.ld x0 r0_4) (View.ld x0 r0_5) (View.ld x0 r0_6) (View.ld x0 r0_7)) (View.ld x0 r0_8) y
      = fold cols (ix4 n (⟨g * 16 + (y 1).val, by have : (y 1).val < 16 := (y 1).isLt; omega⟩ : Fin 64) (y 2) (y 3)) := by
  obtain ⟨y0, c', h, w, rfl⟩ : ∃ (y0 : Fin 1) (c' : Fin 16) (h w : Fin 128), y = ix4 y0 c' h w := ⟨y 0, y 1, y 2, y 3, eq_ix4 y⟩
  obtain rfl : y0 = 0 := Subsingleton.elim _ _
  exact payload_at x0 (fun a b p q => cols (ix6 n (⟨g * 16 + c'.val, by have := c'.isLt; omega⟩ : Fin 64) p q a b)) c'
    (fun a b p q => hx c' a b p q) h w

/-- WHAT POINT `t` WRITES BACK is block `t` of the fold of the patch array. -/
theorem flushed_eq (c : Dev nD) (t : Fin cfg0.N) :
    (dats m 0 c).flushed 1 t = ((cfg0.win 1).blk t).view.read (Elt Ideal) (fold (m ((c : Thread nD τ).loc main_arg0))) := by
  rw [Cert.KernelIdeal.Value.flushed1]
  unfold out0_1
  rw [View.canon_unit_zero offsets_zero]
  obtain ⟨e0, e1, e2, e3, e4, e5, f2, f3, b0, b1⟩ := index_facts t
  funext y
  show k0_pay1 (F := Ideal) _ _ y = fold (m ((c : Thread nD τ).loc main_arg0)) (((cfg0.win 1).blk t).view.emb y)
  refine (stored_eq_fold (iblk m c 0 t) (m ((c : Thread nD τ).loc main_arg0)) ⟨win0_1.index t (0 : Fin 4), by omega⟩
    (win0_1.index t (1 : Fin 4)) b1 (fun c' a b p q => ?_) y).trans (congrArg _ ?_)
  · -- the input block's element is the transposed array's, which is the argument's
    show (V m c main_v0 : S16x64x3x3x128x128.Idx → EReal) (((cfg0.win 0).blk t).view.emb (ix6 (0 : Fin 1) c' a b p q)) = _
    refine (congrArg (V m c main_v0 : S16x64x3x3x128x128.Idx → EReal) ?_).trans
      (entry_array_apply m c ⟨win0_1.index t (0 : Fin 4), by omega⟩ ⟨win0_1.index t (1 : Fin 4) * 16 + c'.val, by have := c'.isLt; omega⟩ a b p q)
    funext k; apply Fin.ext
    match k with
    | ⟨0, _⟩ => show win0_0.index t (0 : Fin 6) * 1 + 1 * 0 = win0_1.index t (0 : Fin 4); omega
    | ⟨1, _⟩ => show win0_0.index t (1 : Fin 6) * 16 + 1 * c'.val = win0_1.index t (1 : Fin 4) * 16 + c'.val; omega
    | ⟨2, _⟩ => show win0_0.index t (2 : Fin 6) * 3 + 1 * a.val = a.val; omega
    | ⟨3, _⟩ => show win0_0.index t (3 : Fin 6) * 3 + 1 * b.val = b.val; omega
    | ⟨4, _⟩ => show win0_0.index t (4 : Fin 6) * 128 + 1 * p.val = p.val; omega
    | ⟨5, _⟩ => show win0_0.index t (5 : Fin 6) * 128 + 1 * q.val = q.val; omega
  · -- the result array's index under the output block
    funext k; apply Fin.ext
    match k with
    | ⟨0, _⟩ => show win0_1.index t (0 : Fin 4) = win0_1.index t (0 : Fin 4) * 1 + 1 * (y 0).val; have : (y 0).val < 1 := (y 0).isLt; omega
    | ⟨1, _⟩ => show win0_1.index t (1 : Fin 4) * 16 + (y 1).val = win0_1.index t (1 : Fin 4) * 16 + 1 * (y 1).val; omega
    | ⟨2, _⟩ => show (y 2).val = win0_1.index t (2 : Fin 4) * 128 + 1 * (y 2).val; omega
    | ⟨3, _⟩ => show (y 3).val = win0_1.index t (3 : Fin 4) * 128 + 1 * (y 3).val; omega

/-! ## The blocks tile the result array -/

/-- An index of the result array is in point `t`'s block iff each coordinate is in the block's range on its axis. -/
theorem mem_block (t : Fin cfg0.N) (i : S16x64x128x128.Idx) :
    i ∈ ((cfg0.win 1).blk t).view.set ↔ ∀ a : Fin 4, win0_1.index t a * S1x16x128x128.size a ≤ (i a).val ∧ (i a).val < win0_1.index t a * S1x16x128x128.size a + S1x16x128x128.size a := by
  show i ∈ ((View.whole main_v1).slice (win0_1.rect t)).set ↔ _
  rw [View.set_slice_whole, Rect.mem_set_unit]
  exact Iff.rfl

/-- Every index of the result array is in the block of the point of its image and channel group. -/
theorem covered (i : S16x64x128x128.Idx) : ∃ t : Fin cfg0.N, (cfg0.win 1).flush t = true ∧ i ∈ ((cfg0.win 1).blk t).view.set := by
  have hi0 : (i 0).val < 16 := (i 0).isLt
  have hi1 : (i 1).val < 64 := (i 1).isLt
  have hi2 : (i 2).val < 128 := (i 2).isLt
  have hi3 : (i 3).val < 128 := (i 3).isLt
  obtain ⟨t, ht⟩ := index_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- THE RESULT ARRAY after the run is the fold of the patch array. -/
theorem final (c : Dev nD) : (dats m 0 c).arrAt 1 cfg0.N = fold (m ((c : Thread nD τ).loc main_arg0)) :=
  (dats m 0 c).arrAt_eq_of_cover 1 (fold (m ((c : Thread nD τ).loc main_arg0))) (fun t _ => flushed_eq m c t) (fun i => covered i)

/-! ## The run, read -/

/-- Every weakly fair execution of the kernel's program ends with the result array at the fold of the patch array
    and the patch array unchanged. -/
theorem run : θ_run defs (onTc (τ := τ) (main (F := Ideal))) ⟨m, fun _ => 0, ρ⟩ fun r => ∀ c : Dev nD,
      r.2.mem ((c : Thread nD τ).loc main_v1) = fold (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.FoldKernel

end
-- ==== Proof.LibScatterAt.lean ====
/-
  A host scatter read at one index of its result.

  The host's `scatter` is a left fold over all the update indices, in row-major order: each update index `j` has
  a landing place `d.resultIdx? j idx` in the operand (or none, when its window leaves the operand), and the step
  for `j` replaces the element there by the body `f` applied to it and to the update's element at `j`.
  When distinct update indices never land on the same place, the element of the result at a place `i` has met
  at most one step:
    * `Host.scatter_apply_of_miss`: no update index lands on `i`  ⟹  the result at `i` is the operand's element;
    * `Host.scatter_apply_of_hit`:  `j₀` lands on `i`             ⟹  the result at `i` is `f (x i) (upd j₀)`.
  Both hold for any body `f` and any element type; nothing is evaluated, so the number of update indices is
  irrelevant. The first needs no injectivity. `ScatterDims.resultIdx?_val` reads a landing place coordinate by
  coordinate (start plus window coordinate), which is how the two hypotheses are met for given dimension numbers.
-/
import Idealize.ShloMosaic.PureOps.ShapeOps

namespace Idealize.ShloMosaic

section ScatterAt
variable {s si u : Shape} {α : Type} {w : Nat}

/-- The step of `Host.scatter`'s fold at the update index of row-major position `n`. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the fold of that step over all positions. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update index lands elsewhere (or nowhere) leaves the element at `i` alone. -/
theorem Host.scatterStep_apply_of_ne (d : ScatterDims s si u) (f : α → α → α) (idx : IVec si w) (upd : u.Idx → α)
    (r : s.Idx → α) (n : Fin u.numel) (i : s.Idx) (h : d.resultIdx? (u.rowMajor.symm n) idx ≠ some i) :
    Host.scatterStep d f idx upd r n i = r i := by
  unfold Host.scatterStep
  generalize d.resultIdx? (u.rowMajor.symm n) idx = o at h ⊢
  cases o with
  | none => rfl
  | some k => exact if_neg fun e => h (congrArg some e.symm)

/-- A step whose update index lands on `i` applies the body there. -/
theorem Host.scatterStep_apply_of_eq (d : ScatterDims s si u) (f : α → α → α) (idx : IVec si w) (upd : u.Idx → α)
    (r : s.Idx → α) (n : Fin u.numel) (i : s.Idx) (h : d.resultIdx? (u.rowMajor.symm n) idx = some i) :
    Host.scatterStep d f idx upd r n i = f (r i) (upd (u.rowMajor.symm n)) := by
  unfold Host.scatterStep
  generalize d.resultIdx? (u.rowMajor.symm n) idx = o at h ⊢
  cases o with
  | none => exact absurd h (by simp)
  | some k =>
    have e : k = i := Option.some.inj h
    subst e
    exact if_pos rfl

/-- A run of steps none of which lands on `i` leaves the element at `i` alone. -/
theorem Host.foldl_scatterStep_apply_of_miss (d : ScatterDims s si u) (f : α → α → α) (idx : IVec si w) (upd : u.Idx → α)
    (i : s.Idx) : ∀ (l : List (Fin u.numel)) (r : s.Idx → α),
      (∀ n ∈ l, d.resultIdx? (u.rowMajor.symm n) idx ≠ some i) → l.foldl (Host.scatterStep d f idx upd) r i = r i
  | [], _, _ => rfl
  | a :: l, r, h => by
    rw [List.foldl_cons, Host.foldl_scatterStep_apply_of_miss d f idx upd i l _ fun n hn => h n (List.mem_cons_of_mem _ hn)]
    exact Host.scatterStep_apply_of_ne d f idx upd r a i (h a (List.mem_cons_self ..))

/-- NO UPDATE INDEX LANDS ON `i`: the scatter's result there is the operand's element. -/
theorem Host.scatter_apply_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [Host.scatter_eq_foldl]
  exact Host.foldl_scatterStep_apply_of_miss d f idx upd i _ x fun n _ => h _

/-- A run of steps over distinct positions, one of which is the position of `j₀`, which lands on `i` and is the
    only update index to do so: the element at `i` has met the body once, with the update's element at `j₀`. -/
theorem Host.foldl_scatterStep_apply_of_hit (d : ScatterDims s si u) (f : α → α → α) (idx : IVec si w) (upd : u.Idx → α)
    (i : s.Idx) (j₀ : u.Idx) (h₀ : d.resultIdx? j₀ idx = some i)
    (huniq : ∀ j : u.Idx, d.resultIdx? j idx = some i → j = j₀) :
    ∀ (l : List (Fin u.numel)) (r : s.Idx → α), l.Nodup → u.rowMajor j₀ ∈ l →
      l.foldl (Host.scatterStep d f idx upd) r i = f (r i) (upd j₀)
  | [], _, _, hm => absurd hm (List.not_mem_nil)
  | a :: l, r, hnd, hm => by
    have hal : a ∉ l := (List.nodup_cons.1 hnd).1
    have hl : l.Nodup := (List.nodup_cons.1 hnd).2
    rw [List.foldl_cons]
    by_cases ha : a = u.rowMajor j₀
    · -- this step is the one; none after it lands on `i`
      have hrest : ∀ n ∈ l, d.resultIdx? (u.rowMajor.symm n) idx ≠ some i := fun n hn hk => by
        have : n = u.rowMajor j₀ := by rw [← huniq _ hk, Equiv.apply_symm_apply]
        exact hal (ha ▸ this ▸ hn)
      rw [Host.foldl_scatterStep_apply_of_miss d f idx upd i l _ hrest]
      have hj : u.rowMajor.symm a = j₀ := by rw [ha, Equiv.symm_apply_apply]
      rw [Host.scatterStep_apply_of_eq d f idx upd r a i (hj ▸ h₀), hj]
    · -- this step lands elsewhere; the one comes later
      have hm' : u.rowMajor j₀ ∈ l := by
        rcases List.mem_cons.1 hm with h | h
        · exact absurd h.symm ha
        · exact h
      have hne : d.resultIdx? (u.rowMajor.symm a) idx ≠ some i := fun hk =>
        ha (by rw [← huniq _ hk, Equiv.apply_symm_apply])
      rw [Host.foldl_scatterStep_apply_of_hit d f idx upd i j₀ h₀ huniq l _ hl hm',
        Host.scatterStep_apply_of_ne d f idx upd r a i hne]

/-- THE UPDATE INDEX `j₀`, AND NO OTHER, LANDS ON `i`: the scatter's result there is the body applied to the
    operand's element and the update's element at `j₀`. -/
theorem Host.scatter_apply_of_hit (d : ScatterDims s si u) (f : α → α → α) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d f x idx upd i = f (x i) (upd j₀) := by
  rw [Host.scatter_eq_foldl]
  exact Host.foldl_scatterStep_apply_of_hit d f idx upd i j₀ h₀ huniq _ x (List.nodup_finRange _) (List.mem_finRange _)

/-- WHERE AN UPDATE INDEX LANDS, coordinate by coordinate: the window's start on the axis plus the update's window
    coordinate there (as integers: the start is read signed). -/
theorem ScatterDims.resultIdx?_val (d : ScatterDims s si u) {j : u.Idx} {idx : IVec si w} {k : s.Idx}
    (h : d.resultIdx? j idx = some k) (a : Fin s.rank) :
    ((k a).val : ℤ) = d.start j idx a + (d.window j a : ℤ) := by
  unfold ScatterDims.resultIdx? at h
  by_cases hb : ∀ a, 0 ≤ d.start j idx a + d.window j a ∧ d.start j idx a + d.window j a < s.size a
  · rw [dif_pos hb] at h
    have e := Option.some.inj h
    subst e
    exact Int.toNat_of_nonneg (hb a).1
  · rw [dif_neg hb] at h
    exact absurd h (by simp)

end ScatterAt

end Idealize.ShloMosaic
-- ==== Proof.RefScatter.lean ====
/-
  One step of the reference: a whole [16, 64, 128, 128] plane of the patch array scatter-added into the padded
  [16, 64, 130, 130] image at a start `(A, B)` with `A, B ≤ 2`, read at a pixel of the image.

  The scatter has ONE index vector `(A, B)` (into the image's two spatial axes) and the update is one window that
  covers all four axes: update index `(n, ch, p, q)` lands at `(n, ch, A + p, B + q)`, always inside the padded
  image. Distinct update indices land at distinct places, so the padded pixel `(n, ch, P, Q)` receives
  the one update element with `p = P - A`, `q = Q - B` when `A ≤ P < A + 128` and `B ≤ Q < B + 128`, and is
  left alone otherwise (`scatter_at`). At the pixels that survive the crop, `P = 1 + h`, `Q = 1 + w`, the
  received element is the fold's summand `tap … A B … h w`, and "left alone" is "plus zero" (`scatter_tap`).
  The index vector of each step is two one-element constants joined (`pair_idx`), and its update is a unit slice
  of the patch array with its two unit axes dropped (`plane_apply`).
-/
import Idealize.ShloMosaic.Lib.Pipeline.Value
import proofs.«122294_j31980326486781_1_alg».proof.Proof.LibScatterAt
import proofs.«122294_j31980326486781_1_alg».proof.Proof.FoldSpec

noncomputable section

namespace Cert.FoldRef

open Idealize.ShloMosaic Idealize.ShloMosaic.ValueIdx Cert.FoldSpec

/-- The padded image, the index vector, the plane, the patch array and its unit slices. -/
abbrev SO : Shape := ⟨4, ![16, 64, 130, 130]⟩
abbrev SI : Shape := ⟨1, ![2]⟩
abbrev SI1 : Shape := ⟨1, ![1]⟩
abbrev SU : Shape := ⟨4, ![16, 64, 128, 128]⟩
abbrev SC : Shape := ⟨6, ![16, 64, 128, 128, 3, 3]⟩
abbrev SC1 : Shape := ⟨6, ![16, 64, 128, 128, 1, 1]⟩

/-- The scatter's dimension numbers: the update's four axes are window axes, none is inserted, and the index
    vector (axis 0 of the indices) gives the start on the operand's axes 2 and 3. -/
def winDims (wf : ScatterDims.WF SO SI SU [0, 1, 2, 3] [] [2, 3] 0) : ScatterDims SO SI SU :=
  { updateWindowDims := [0, 1, 2, 3], insertedWindowDims := [], scatterDimsToOperandDims := [2, 3], indexVectorDim := 0, wf := wf }

variable (wf : ScatterDims.WF SO SI SU [0, 1, 2, 3] [] [2, 3] 0)

/-- The window coordinate on every axis is the update index's own coordinate. -/
theorem window_eq (j : SU.Idx) (a : Fin 4) : (winDims wf).window j a = (j a).val := by
  match a with
  | ⟨0, _⟩ => rfl
  | ⟨1, _⟩ => rfl
  | ⟨2, _⟩ => rfl
  | ⟨3, _⟩ => rfl

/-- The window starts at 0 on the two leading axes and at the index vector's two components on the spatial ones. -/
theorem start_eq (j : SU.Idx) (idx : IVec SI 32) (a : Fin 4) :
    (winDims wf).start j idx a = match a with
      | ⟨0, _⟩ => 0 | ⟨1, _⟩ => 0 | ⟨2, _⟩ => (idx (ix1 0)).toInt | ⟨3, _⟩ => (idx (ix1 1)).toInt := by
  match a with
  | ⟨0, _⟩ => rfl
  | ⟨1, _⟩ => rfl
  | ⟨2, _⟩ =>
    have h2 : (2 : Fin SO.rank) ∈ (winDims wf).scatterDimsToOperandDims := (by decide : (2 : Fin 4) ∈ ([2, 3] : List (Fin 4)))
    show (winDims wf).start j idx (2 : Fin 4) = (idx (ix1 0)).toInt
    unfold ScatterDims.start
    rw [dif_pos h2]
    exact congrArg (fun k => (idx k).toInt) (funext fun b => by match b with | ⟨0, _⟩ => rfl)
  | ⟨3, _⟩ =>
    have h3 : (3 : Fin SO.rank) ∈ (winDims wf).scatterDimsToOperandDims := (by decide : (3 : Fin 4) ∈ ([2, 3] : List (Fin 4)))
    show (winDims wf).start j idx (3 : Fin 4) = (idx (ix1 1)).toInt
    unfold ScatterDims.start
    rw [dif_pos h3]
    exact congrArg (fun k => (idx k).toInt) (funext fun b => by match b with | ⟨0, _⟩ => rfl)

/-- Start plus window coordinate, axis by axis, for the start `(A, B)`. -/
theorem start_add_window (idx : IVec SI 32) (A B : Fin 3) (hA : (idx (ix1 0)).toInt = (A.val : ℤ)) (hB : (idx (ix1 1)).toInt = (B.val : ℤ))
    (j : SU.Idx) (a : Fin 4) :
    (winDims wf).start j idx a + ((winDims wf).window j a : ℤ) = match a with
      | ⟨0, _⟩ => ((j 0).val : ℤ) | ⟨1, _⟩ => ((j 1).val : ℤ)
      | ⟨2, _⟩ => ((A.val + (j 2).val : ℕ) : ℤ) | ⟨3, _⟩ => ((B.val + (j 3).val : ℕ) : ℤ) := by
  rw [start_eq wf j idx a, window_eq wf j a]
  match a with
  | ⟨0, _⟩ => exact zero_add _
  | ⟨1, _⟩ => exact zero_add _
  | ⟨2, _⟩ => show (idx (ix1 0)).toInt + ((j 2).val : ℤ) = _; rw [hA]; exact (Nat.cast_add _ _).symm
  | ⟨3, _⟩ => show (idx (ix1 1)).toInt + ((j 3).val : ℤ) = _; rw [hB]; exact (Nat.cast_add _ _).symm

/-- UPDATE INDEX `(n, ch, p, q)` LANDS AT `(n, ch, A + p, B + q)`. -/
theorem lands (idx : IVec SI 32) (A B : Fin 3) (hA : (idx (ix1 0)).toInt = (A.val : ℤ)) (hB : (idx (ix1 1)).toInt = (B.val : ℤ))
    (n : Fin 16) (ch : Fin 64) (p q : Fin 128) :
    (winDims wf).resultIdx? (ix4 n ch p q) idx
      = some (ix4 n ch (⟨A.val + p.val, by have := A.isLt; have := p.isLt; omega⟩ : Fin 130)
          (⟨B.val + q.val, by have := B.isLt; have := q.isLt; omega⟩ : Fin 130)) := by
  have key : ∀ a : Fin 4, (winDims wf).start (ix4 n ch p q) idx a + ((winDims wf).window (ix4 n ch p q) a : ℤ)
      = (((ix4 n ch (⟨A.val + p.val, by have := A.isLt; have := p.isLt; omega⟩ : Fin 130)
          (⟨B.val + q.val, by have := B.isLt; have := q.isLt; omega⟩ : Fin 130) : SO.Idx) a).val : ℤ) := fun a => by
    rw [start_add_window wf idx A B hA hB (ix4 n ch p q) a]
    match a with
    | ⟨0, _⟩ => rfl
    | ⟨1, _⟩ => rfl
    | ⟨2, _⟩ => rfl
    | ⟨3, _⟩ => rfl
  unfold ScatterDims.resultIdx?
  rw [dif_pos (fun a => by rw [key a]; exact ⟨Int.natCast_nonneg _, Int.ofNat_lt.2 (Fin.isLt _)⟩)]
  refine congrArg some (funext fun a => Fin.ext ?_)
  show ((winDims wf).start (ix4 n ch p q) idx a + ((winDims wf).window (ix4 n ch p q) a : ℤ)).toNat = _
  rw [key a]
  exact Int.toNat_natCast _

/-- A LANDING PLACE, read back: its coordinates are the update index's, the spatial ones moved by `(A, B)`. -/
theorem landed (idx : IVec SI 32) (A B : Fin 3) (hA : (idx (ix1 0)).toInt = (A.val : ℤ)) (hB : (idx (ix1 1)).toInt = (B.val : ℤ))
    (j : SU.Idx) (k : SO.Idx) (h : (winDims wf).resultIdx? j idx = some k) :
    (k 0).val = (j 0).val ∧ (k 1).val = (j 1).val ∧ (k 2).val = A.val + (j 2).val ∧ (k 3).val = B.val + (j 3).val := by
  have e := fun a => ((winDims wf).resultIdx?_val h a).trans (start_add_window wf idx A B hA hB j a)
  exact ⟨Int.ofNat_inj.1 (e 0), Int.ofNat_inj.1 (e 1), Int.ofNat_inj.1 (e 2), Int.ofNat_inj.1 (e 3)⟩

/-- THE SCATTER-ADD AT A PADDED PIXEL: the pixel's old value plus the one update element that lands on it, or
    plus zero when none does. -/
theorem scatter_at (X : SO.Idx → EReal) (idx : IVec SI 32) (A B : Fin 3)
    (hA : (idx (ix1 0)).toInt = (A.val : ℤ)) (hB : (idx (ix1 1)).toInt = (B.val : ℤ)) (U : SU.Idx → EReal)
    (n : Fin 16) (ch : Fin 64) (P Q : Fin 130) :
    Host.scatter (winDims wf) (FloatOps.addf (F := Ideal) (φ := .f32)) X idx U (ix4 n ch P Q)
      = X (ix4 n ch P Q)
        + (if hc : (A.val ≤ P.val ∧ P.val - A.val < 128) ∧ (B.val ≤ Q.val ∧ Q.val - B.val < 128) then
            U (ix4 n ch ⟨P.val - A.val, hc.1.2⟩ ⟨Q.val - B.val, hc.2.2⟩)
          else 0) := by
  by_cases hc : (A.val ≤ P.val ∧ P.val - A.val < 128) ∧ (B.val ≤ Q.val ∧ Q.val - B.val < 128)
  · rw [dif_pos hc]
    refine Host.scatter_apply_of_hit (winDims wf) _ X idx U (ix4 n ch P Q)
      (ix4 n ch ⟨P.val - A.val, hc.1.2⟩ ⟨Q.val - B.val, hc.2.2⟩) ?_ ?_
    · rw [lands wf idx A B hA hB]
      refine congrArg some (funext fun a => Fin.ext ?_)
      match a with
      | ⟨0, _⟩ => rfl
      | ⟨1, _⟩ => rfl
      | ⟨2, _⟩ => show A.val + (P.val - A.val) = P.val; have := hc.1.1; omega
      | ⟨3, _⟩ => show B.val + (Q.val - B.val) = Q.val; have := hc.2.1; omega
    · intro j hj
      obtain ⟨e0, e1, e2, e3⟩ := landed wf idx A B hA hB j _ hj
      funext a
      apply Fin.ext
      match a with
      | ⟨0, _⟩ => exact e0.symm
      | ⟨1, _⟩ => exact e1.symm
      | ⟨2, _⟩ => show (j 2).val = P.val - A.val; have : P.val = A.val + (j 2).val := e2; omega
      | ⟨3, _⟩ => show (j 3).val = Q.val - B.val; have : Q.val = B.val + (j 3).val := e3; omega
  · rw [dif_neg hc, add_zero]
    refine Host.scatter_apply_of_miss (winDims wf) _ X idx U (ix4 n ch P Q) fun j hj => hc ?_
    obtain ⟨-, -, e2, e3⟩ := landed wf idx A B hA hB j _ hj
    have h2 : P.val = A.val + (j 2).val := e2
    have h3 : Q.val = B.val + (j 3).val := e3
    have l2 : (j 2).val < 128 := (j 2).isLt
    have l3 : (j 3).val < 128 := (j 3).isLt
    exact ⟨⟨by omega, by omega⟩, ⟨by omega, by omega⟩⟩

/-- THE STEP AT A PIXEL THAT SURVIVES THE CROP: image pixel `(h, w)` sits at `(1 + h, 1 + w)` of the padded image,
    and the step at start `(A, B)` adds to it the fold's summand of patch entry `(A, B)`. -/
theorem scatter_tap (d : ScatterDims SO SI SU) (hd : d = winDims wf) (X : SO.Idx → EReal) (idx : IVec SI 32) (A B : Fin 3)
    (hA : (idx (ix1 0)).toInt = (A.val : ℤ)) (hB : (idx (ix1 1)).toInt = (B.val : ℤ)) (U : SU.Idx → EReal)
    (cols : SC.Idx → EReal) (n : Fin 16) (ch : Fin 64) (hU : ∀ p q : Fin 128, U (ix4 n ch p q) = cols (ix6 n ch p q A B))
    (h w : Fin 128) (P Q : Fin 130) (hP : P.val = 1 + h.val) (hQ : Q.val = 1 + w.val) :
    Host.scatter d (FloatOps.addf (F := Ideal) (φ := .f32)) X idx U (ix4 n ch P Q)
      = X (ix4 n ch P Q) + tap cols A B n ch h w := by
  subst hd
  rw [scatter_at wf X idx A B hA hB U n ch P Q, tap_eq]
  refine congrArg (X (ix4 n ch P Q) + ·) ?_
  by_cases hc : (A.val ≤ h.val + 1 ∧ h.val + 1 - A.val < 128) ∧ (B.val ≤ w.val + 1 ∧ w.val + 1 - B.val < 128)
  · have hc' : (A.val ≤ P.val ∧ P.val - A.val < 128) ∧ (B.val ≤ Q.val ∧ Q.val - B.val < 128) := by
      obtain ⟨⟨a1, a2⟩, ⟨b1, b2⟩⟩ := hc
      exact ⟨⟨by omega, by omega⟩, ⟨by omega, by omega⟩⟩
    rw [dif_pos hc, dif_pos hc', hU]
    exact congrArg cols (funext fun a => Fin.ext (by
      match a with
      | ⟨0, _⟩ => rfl
      | ⟨1, _⟩ => rfl
      | ⟨2, _⟩ => show P.val - A.val = h.val + 1 - A.val; omega
      | ⟨3, _⟩ => show Q.val - B.val = w.val + 1 - B.val; omega
      | ⟨4, _⟩ => rfl
      | ⟨5, _⟩ => rfl))
  · have hc' : ¬((A.val ≤ P.val ∧ P.val - A.val < 128) ∧ (B.val ≤ Q.val ∧ Q.val - B.val < 128)) := fun hh => hc (by
      obtain ⟨⟨a1, a2⟩, ⟨b1, b2⟩⟩ := hh
      exact ⟨⟨by omega, by omega⟩, ⟨by omega, by omega⟩⟩)
    rw [dif_neg hc, dif_neg hc']

/-- THE INDEX VECTOR of a step: two one-element vectors joined read back as their two elements. -/
theorem pair_idx (x y : SI1.Idx → BitVec 32) (hc : Shape.Concatenates [SI1, SI1] SI 0) :
    concatenate SI 0 [⟨SI1, x⟩, ⟨SI1, y⟩] hc (ix1 0) = x (ix1 0)
      ∧ concatenate SI 0 [⟨SI1, x⟩, ⟨SI1, y⟩] hc (ix1 1) = y (ix1 0) := by
  constructor
  · exact concatenate_pair_apply_left 0 x y hc (ix1 0) rfl (ix1 0) (fun b => by match b with | ⟨0, _⟩ => rfl)
  · exact concatenate_pair_apply_right 0 x y hc (ix1 1) rfl rfl (ix1 0)
      (fun b hb => absurd (Fin.ext (by match b with | ⟨0, _⟩ => rfl)) hb) rfl

/-- THE UPDATE of a step: the unit slice of the patch array at patch entry `(A, B)`, its two unit axes dropped, is
    the plane `(n, ch, p, q) ↦ cols[n, ch, p, q, A, B]`. -/
theorem plane_apply (cols : SC.Idx → EReal) (A B : Fin 3) (off : Fin 6 → ℕ) (hoff : off = ![0, 0, 0, 0, A.val, B.val])
    (hs : SC.Slices off SC1) (hc : SC1.ShapeCasts SU) (n : Fin 16) (ch : Fin 64) (p q : Fin 128) :
    shapeCast SU (extractStridedSlice SC1 off cols hs) hc (ix4 n ch p q) = cols (ix6 n ch p q A B) := by
  subst hoff
  refine (shapeCast_apply _ hc (ix4 n ch p q) (ix6 n ch p q 0 0) ?_).trans ?_
  · rw [Shape.rowMajor_val_six, Shape.rowMajor_val_four]
    show (((((n.val * 64 + ch.val) * 128 + p.val) * 128 + q.val) * 1 + 0) * 1 + 0) = ((n.val * 64 + ch.val) * 128 + p.val) * 128 + q.val
    omega
  · exact extractStridedSlice_apply _ cols hs (ix6 n ch p q 0 0) (ix6 n ch p q A B) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => rfl
      | ⟨5, _⟩ => rfl)

end Cert.FoldRef

end
-- ==== Proof.RefValue.lean ====
/-
  The reference computes the fold.

  The reference starts from a padded image of zeros, performs the nine scatter-add steps at the starts
  `(0,0), (0,1), …, (2,2)` (step `(a, b)` adds the plane of patch entry `(a, b)`), and crops one pixel on each side.
  Read at image pixel `(h, w)`, that is padded pixel `(1 + h, 1 + w)`: each step adds the fold's summand of its
  patch entry to what the previous steps left there (RefScatter's `scatter_tap`), the first one to zero. So the
  result is `0 + tap (0,0) + … + tap (2,2)`, the nine summands in the specification's own order.
-/
import proofs.«122294_j31980326486781_1_alg».proof.Proof.Gen.ReferenceIdeal.Run
import proofs.«122294_j31980326486781_1_alg».proof.Proof.RefScatter
import Idealize.ShloMosaic.PureOps.Ideal.Laws

noncomputable section

namespace Cert.FoldRef

open Cert.ReferenceIdeal Cert.ReferenceIdeal.Gen Idealize.ShloMosaic Idealize.ShloMosaic.TcCoe Idealize.SL.Sem
open Idealize.ShloMosaic.ValueIdx Cert.FoldSpec

/-- THE REFERENCE'S RESULT AT A PIXEL is the fold of the patch array there. -/
theorem reference_at (m : (ℓ : Loc nD τ sig) → Buf (Elt Ideal) ℓ) (c : Dev nD) (n : Fin 16) (ch : Fin 64) (h w : Fin 128) :
    Cert.ReferenceIdeal.Value.res_main_v55 (F := Ideal) m c (ix4 n ch h w)
      = foldAt (m ((c.tc : Thread nD τ).loc main_arg0)) n ch h w := by
  unfold Cert.ReferenceIdeal.Value.res_main_v55 foldAt
  generalize m ((c.tc : Thread nD τ).loc main_arg0) = x0
  -- the crop: image pixel (h, w) is padded pixel (1 + h, 1 + w)
  refine (extractStridedSlice_apply _ _ _ (ix4 n ch h w)
    (ix4 n ch (⟨1 + h.val, by have := h.isLt; omega⟩ : Fin 130) (⟨1 + w.val, by have := w.isLt; omega⟩ : Fin 130)) (fun a => by
      match a with
      | ⟨0, _⟩ => exact (Nat.zero_add _).symm
      | ⟨1, _⟩ => exact (Nat.zero_add _).symm
      | ⟨2, _⟩ => rfl
      | ⟨3, _⟩ => rfl)).trans ?_
  -- the step at start (2, 2)
  refine (scatter_tap _ _ rfl _ _ 2 2
    (by rw [(pair_idx _ _ _).1]; show (2#32 : BitVec 32).toInt = ((2 : ℕ) : ℤ); decide)
    (by rw [(pair_idx _ _ _).2]; show (2#32 : BitVec 32).toInt = ((2 : ℕ) : ℤ); decide)
    _ x0 n ch (fun p q => plane_apply x0 2 2 _ rfl _ _ n ch p q) h w _ _ rfl rfl).trans ?_
  refine congrArg (· + tap x0 2 2 n ch h w) ?_
  -- the step at start (2, 1)
  refine (scatter_tap _ _ rfl _ _ 2 1
    (by rw [(pair_idx _ _ _).1]; show (2#32 : BitVec 32).toInt = ((2 : ℕ) : ℤ); decide)
    (by rw [(pair_idx _ _ _).2]; show (1#32 : BitVec 32).toInt = ((1 : ℕ) : ℤ); decide)
    _ x0 n ch (fun p q => plane_apply x0 2 1 _ rfl _ _ n ch p q) h w _ _ rfl rfl).trans ?_
  refine congrArg (· + tap x0 2 1 n ch h w) ?_
  -- the step at start (2, 0)
  refine (scatter_tap _ _ rfl _ _ 2 0
    (by rw [(pair_idx _ _ _).1]; show (2#32 : BitVec 32).toInt = ((2 : ℕ) : ℤ); decide)
    (by rw [(pair_idx _ _ _).2]; show (0#32 : BitVec 32).toInt = ((0 : ℕ) : ℤ); decide)
    _ x0 n ch (fun p q => plane_apply x0 2 0 _ rfl _ _ n ch p q) h w _ _ rfl rfl).trans ?_
  refine congrArg (· + tap x0 2 0 n ch h w) ?_
  -- the step at start (1, 2)
  refine (scatter_tap _ _ rfl _ _ 1 2
    (by rw [(pair_idx _ _ _).1]; show (1#32 : BitVec 32).toInt = ((1 : ℕ) : ℤ); decide)
    (by rw [(pair_idx _ _ _).2]; show (2#32 : BitVec 32).toInt = ((2 : ℕ) : ℤ); decide)
    _ x0 n ch (fun p q => plane_apply x0 1 2 _ rfl _ _ n ch p q) h w _ _ rfl rfl).trans ?_
  refine congrArg (· + tap x0 1 2 n ch h w) ?_
  -- the step at start (1, 1)
  refine (scatter_tap _ _ rfl _ _ 1 1
    (by rw [(pair_idx _ _ _).1]; show (1#32 : BitVec 32).toInt = ((1 : ℕ) : ℤ); decide)
    (by rw [(pair_idx _ _ _).2]; show (1#32 : BitVec 32).toInt = ((1 : ℕ) : ℤ); decide)
    _ x0 n ch (fun p q => plane_apply x0 1 1 _ rfl _ _ n ch p q) h w _ _ rfl rfl).trans ?_
  refine congrArg (· + tap x0 1 1 n ch h w) ?_
  -- the step at start (1, 0)
  refine (scatter_tap _ _ rfl _ _ 1 0
    (by rw [(pair_idx _ _ _).1]; show (1#32 : BitVec 32).toInt = ((1 : ℕ) : ℤ); decide)
    (by rw [(pair_idx _ _ _).2]; show (0#32 : BitVec 32).toInt = ((0 : ℕ) : ℤ); decide)
    _ x0 n ch (fun p q => plane_apply x0 1 0 _ rfl _ _ n ch p q) h w _ _ rfl rfl).trans ?_
  refine congrArg (· + tap x0 1 0 n ch h w) ?_
  -- the step at start (0, 2)
  refine (scatter_tap _ _ rfl _ _ 0 2
    (by rw [(pair_idx _ _ _).1]; show (0#32 : BitVec 32).toInt = ((0 : ℕ) : ℤ); decide)
    (by rw [(pair_idx _ _ _).2]; show (2#32 : BitVec 32).toInt = ((2 : ℕ) : ℤ); decide)
    _ x0 n ch (fun p q => plane_apply x0 0 2 _ rfl _ _ n ch p q) h w _ _ rfl rfl).trans ?_
  refine congrArg (· + tap x0 0 2 n ch h w) ?_
  -- the step at start (0, 1)
  refine (scatter_tap _ _ rfl _ _ 0 1
    (by rw [(pair_idx _ _ _).1]; show (0#32 : BitVec 32).toInt = ((0 : ℕ) : ℤ); decide)
    (by rw [(pair_idx _ _ _).2]; show (1#32 : BitVec 32).toInt = ((1 : ℕ) : ℤ); decide)
    _ x0 n ch (fun p q => plane_apply x0 0 1 _ rfl _ _ n ch p q) h w _ _ rfl rfl).trans ?_
  refine congrArg (· + tap x0 0 1 n ch h w) ?_
  -- the step at start (0, 0)
  refine (scatter_tap _ _ rfl _ _ 0 0
    (by rw [(pair_idx _ _ _).1]; show (0#32 : BitVec 32).toInt = ((0 : ℕ) : ℤ); decide)
    (by rw [(pair_idx _ _ _).2]; show (0#32 : BitVec 32).toInt = ((0 : ℕ) : ℤ); decide)
    _ x0 n ch (fun p q => plane_apply x0 0 0 _ rfl _ _ n ch p q) h w _ _ rfl rfl).trans ?_
  refine congrArg (· + tap x0 0 0 n ch h w) ?_
  -- the padded image of zeros
  exact Ideal.ofBits_zero_f32

/-- THE REFERENCE'S RESULT ARRAY is the fold of the patch array. -/
theorem reference_eq (m : (ℓ : Loc nD τ sig) → Buf (Elt Ideal) ℓ) (c : Dev nD) :
    Cert.ReferenceIdeal.Value.res_main_v55 (F := Ideal) m c = fold (m ((c.tc : Thread nD τ).loc main_arg0)) := by
  funext i
  obtain ⟨n, ch, h, w, rfl⟩ : ∃ (n : Fin 16) (ch : Fin 64) (h w : Fin 128), i = ix4 n ch h w := ⟨i 0, i 1, i 2, i 3, eq_ix4 i⟩
  exact reference_at m c n ch h w

end Cert.FoldRef

end
-- ==== Proof.lean ====
/-
  Fold (col2im) of 3×3 patches at stride 1 and padding 1: a shift-and-add kernel against a scatter-add reference.

  The argument `cols : f32[16, 64, 128, 128, 3, 3]` holds, for each image `n`, channel `ch` and window position
  `(p, q)`, a 3×3 patch. Both programs return `out : f32[16, 64, 128, 128]` with

      out[n, ch, h, w] = ∑_{a, b < 3} [0 ≤ h + 1 - a < 128] [0 ≤ w + 1 - b < 128] cols[n, ch, h + 1 - a, w + 1 - b, a, b],

  the nine summands added to zero in the order `(0,0), (0,1), …, (2,2)` (Proof/FoldSpec.lean: `fold`).

  * The reference scatter-adds each plane `cols[:, :, :, :, a, b]` into a zero image padded to 130 × 130 at the start
    `(a, b)` and crops one pixel per side. A scatter with one start index and a window over all axes lands distinct
    update elements on distinct places, so a pixel receives at most one element per step
    (Proof/LibScatterAt.lean, Proof/RefScatter.lean); at the surviving pixels that element is the summand above, and a
    pixel that receives none keeps its value (Proof/RefValue.lean).
  * The kernel transposes `cols` on the host so that the patch entry comes before the position, and at each grid point
    (an image and a group of 16 channels) adds to a zero accumulator the nine planes, each moved by `1 - a` rows and
    `1 - b` columns with zeros moved in: a slice and a concatenation with a row or column of zeros per move
    (Proof/KernelShift.lean, Proof/KernelPayload.lean). The 64 output blocks tile the result (Proof/KernelValue.lean).

  The two agree summand by summand and in the same order; the one law used is `x + 0 = x` (where the kernel adds a
  padding zero the reference adds nothing), which holds for every extended real, so the finiteness of the input is
  never used. The kernel's idealization rewrote nothing, so that conjunct is trivial; the kernel's two frames are the
  generated ones and the reference's frame is its generated run with the result dropped.
-/
import proofs.«122294_j31980326486781_1_alg».proof.Defs
import proofs.«122294_j31980326486781_1_alg».proof.Proof.Gen.Kernel
import proofs.«122294_j31980326486781_1_alg».proof.Proof.Gen.Kernel.Frame
import proofs.«122294_j31980326486781_1_alg».proof.Proof.Gen.KernelIdeal
import proofs.«122294_j31980326486781_1_alg».proof.Proof.Gen.KernelIdeal.Frame
import proofs.«122294_j31980326486781_1_alg».proof.Proof.Gen.KernelIdeal.Value
import proofs.«122294_j31980326486781_1_alg».proof.Proof.Gen.ReferenceIdeal
import proofs.«122294_j31980326486781_1_alg».proof.Proof.Gen.ReferenceIdeal.Run
import proofs.«122294_j31980326486781_1_alg».proof.Proof.Gen.Pre_finite_inputs
import proofs.«122294_j31980326486781_1_alg».proof.Proof.KernelValue
import proofs.«122294_j31980326486781_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the fold of the patch array: the kernel block by block, the
    reference by nine scatter-adds and a crop; from patch arrays that agree the two results are equal. -/
theorem algebraic : Cert.algebraic_KernelIdeal_ReferenceIdeal := by
  intro m ρ m' ρ' _ hagree
  refine ⟨fun c => Cert.FoldSpec.fold (m ((c.tc : Thread Cert.KernelIdeal.nD Cert.KernelIdeal.τ).loc Cert.KernelIdeal.main_arg0)),
    Cert.FoldKernel.run m ρ, ?_⟩
  refine (θ_run Cert.ReferenceIdeal.defs _ _).mono (fun _ h c => ⟨(h c).1.trans ?_, (h c).2⟩)
    (Cert.ReferenceIdeal.Value.run (F := Ideal) m' ρ')
  rw [Cert.FoldRef.reference_eq m' c, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
